-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64x64 : Shape := ⟨4, ![8, 64, 64, 64]⟩
abbrev S64x5x5 : Shape := ⟨3, ![64, 5, 5]⟩
abbrev S64 : Shape := ⟨1, ![64]⟩
abbrev S_ : Shape := ⟨0, ![]⟩

class Facts : Prop where
  bcast_S_S8x64x64x64 : S_.BroadcastsInDim S8x64x64x64 (![] : Fin 0 → Fin S8x64x64x64.rank)
  reducesTo_S8x64x64x64_S_d0_1_2_3 : S8x64x64x64.ReducesTo [0, 1, 2, 3] S_
  h_S_ : 0 < S_.numel
  bcast_S_S64x5x5 : S_.BroadcastsInDim S64x5x5 (![] : Fin 0 → Fin S64x5x5.rank)
  reducesTo_S64x5x5_S_d0_1_2 : S64x5x5.ReducesTo [0, 1, 2] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8x64x64x64 .f32) (main_arg1 : FVec F S64x5x5 .f32) (main_arg2 : FVec F S64 .f32) : IVec S_ 1 :=
  let main_v0 : FVec F S8x64x64x64 .f32 := Host.absf main_arg0
  let main_cst : FVec F S_ .f32 := constant S_ .f32 0x7F800000#32
  let main_v1 : FVec F S8x64x64x64 .f32 := broadcastInDim S8x64x64x64 ![] bcast_S_S8x64x64x64 main_cst
  let main_v2 : IVec S8x64x64x64 1 := cmpf .olt main_v0 main_v1
  let main_c : IVec S_ 1 := constantI S_ 1 1#1
  let main_v3 : IVec S_ 1 := (fun x v => Host.reduce IntOp.andi x v reducesTo_S8x64x64x64_S_d0_1_2_3 h_S_) main_v2 main_c
  let main_v4 : FVec F S64x5x5 .f32 := Host.absf main_arg1
  let main_cst_0 : FVec F S_ .f32 := constant S_ .f32 0x7F800000#32
  let main_v5 : FVec F S64x5x5 .f32 := broadcastInDim S64x5x5 ![] bcast_S_S64x5x5 main_cst_0
  let main_v6 : IVec S64x5x5 1 := cmpf .olt main_v4 main_v5
  let main_c_1 : IVec S_ 1 := constantI S_ 1 1#1
  let main_v7 : IVec S_ 1 := (fun x v => Host.reduce IntOp.andi x v reducesTo_S64x5x5_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8x64x64x64 : Shape := ⟨4, ![8, 64, 64, 64]⟩
abbrev S64x5x5 : Shape := ⟨3, ![64, 5, 5]⟩
abbrev S64 : Shape := ⟨1, ![64]⟩
abbrev S32768x64 : Shape := ⟨2, ![32768, 64]⟩
abbrev S64x25 : Shape := ⟨2, ![64, 25]⟩
abbrev S64x32768x25 : Shape := ⟨3, ![64, 32768, 25]⟩
abbrev S512x64 : Shape := ⟨2, ![512, 64]⟩
abbrev S64x512x25 : Shape := ⟨3, ![64, 512, 25]⟩
abbrev S512 : Shape := ⟨1, ![512]⟩
abbrev S512x1 : Shape := ⟨2, ![512, 1]⟩
abbrev S1x512x1 : Shape := ⟨3, ![1, 512, 1]⟩
abbrev S64x1x25 : Shape := ⟨3, ![64, 1, 25]⟩
abbrev S64x1x1 : Shape := ⟨3, ![64, 1, 1]⟩
abbrev S1x64x32768x25 : Shape := ⟨4, ![1, 64, 32768, 25]⟩

abbrev nBuf : Space → Nat
  | .hbm => 7
  | .vmem => 6
  | .smem => 0
  | _ => 0

abbrev bufTy : (tb : Table) → Fin (tcTables nBuf tb) → BufTy
  | .hbm, ⟨0, _⟩ => ⟨S8x64x64x64, .f32⟩
  | .hbm, ⟨1, _⟩ => ⟨S64x5x5, .f32⟩
  | .hbm, ⟨2, _⟩ => ⟨S64, .f32⟩
  | .hbm, ⟨3, _⟩ => ⟨S32768x64, .f32⟩
  | .hbm, ⟨4, _⟩ => ⟨S64x25, .f32⟩
  | .hbm, ⟨5, _⟩ => ⟨S64x32768x25, .f32⟩
  | .hbm, ⟨6, _⟩ => ⟨S1x64x32768x25, .f32⟩
  | .local _ .vmem, ⟨0, _⟩ => ⟨S512x64, .f32⟩
  | .local _ .vmem, ⟨1, _⟩ => ⟨S512x64, .f32⟩
  | .local _ .vmem, ⟨2, _⟩ => ⟨S64x25, .f32⟩
  | .local _ .vmem, ⟨3, _⟩ => ⟨S64, .f32⟩
  | .local _ .vmem, ⟨4, _⟩ => ⟨S64x512x25, .f32⟩
  | .local _ .vmem, ⟨5, _⟩ => ⟨S64x512x25, .f32⟩
  | _, _ => ⟨S8x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x25 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x512x25 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x64x64x64_S32768x64 : S8x64x64x64.ShapeCasts S32768x64
  shapeCasts_S64x5x5_S64x25 : S64x5x5.ShapeCasts S64x25
  inb_S512x64_S512x64_0_0 : ∀ a, (![0, 0] : Fin 2 → Nat) a + S512x64.size a ≤ S512x64.size a
  h_S512x64 : 0 < S512x64.numel
  shapeCasts_S512x64_S512x64 : S512x64.ShapeCasts S512x64
  reduces_S512x64_S512 : S512x64.Reduces [1] S512
  shapeCasts_S512_S512x1 : S512.ShapeCasts S512x1
  inb_S64x25_S64x25_0_0 : ∀ a, (![0, 0] : Fin 2 → Nat) a + S64x25.size a ≤ S64x25.size a
  h_S64x25 : 0 < S64x25.numel
  shapeCasts_S64x25_S64x25 : S64x25.ShapeCasts S64x25
  inb_S64_S64_0 : ∀ a, (![0] : Fin 1 → Nat) a + S64.size a ≤ S64.size a
  h_S64 : 0 < S64.numel
  shapeCasts_S512x1_S1x512x1 : S512x1.ShapeCasts S1x512x1
  shapeCasts_S64x25_S64x1x25 : S64x25.ShapeCasts S64x1x25
  broadcasts_S1x512x1_S64x512x25 : S1x512x1.Broadcasts S64x512x25
  broadcasts_S64x1x25_S64x512x25 : S64x1x25.Broadcasts S64x512x25
  shapeCasts_S64_S64x1x1 : S64.ShapeCasts S64x1x1
  broadcasts_S64x1x1_S64x512x25 : S64x1x1.Broadcasts S64x512x25
  inb_S64x512x25_S64x512x25_0_0_0 : ∀ a, (![0, 0, 0] : Fin 3 → Nat) a + S64x512x25.size a ≤ S64x512x25.size a
  h_S64x512x25 : 0 < S64x512x25.numel
  bcast_S64x32768x25_S1x64x32768x25_1_2_3 : S64x32768x25.BroadcastsInDim S1x64x32768x25 (![1, 2, 3] : Fin 3 → Fin S1x64x32768x25.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S32768x64.size a
  hwx0_0 : ∀ i : grid0.Coords, EltTy.bits .f32 = 32 ∨ (Rect.block (s := S32768x64) S512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x25.size a ≤ S64x25.size a
  hwx0_1 : ∀ i : grid0.Coords, EltTy.bits .f32 = 32 ∨ (Rect.block (s := S64x25) S64x25.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x512x25.size a ≤ S64x32768x25.size a
  hwx0_3 : ∀ i : grid0.Coords, EltTy.bits .f32 = 32 ∨ (Rect.block (s := S64x32768x25) S64x512x25.size (cc0_transform_3 i) (hinb0_3 i)).WholeWords (EltTy.packing .f32)

variable [Facts₀]

abbrev win0_0 : Pipeline.Window sig grid0 :=
  Pipeline.Window.ofSpec (Memref.whole main_v0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x25.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x512x25.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x64x64x64 : Shape := ⟨4, ![8, 64, 64, 64]⟩
abbrev S64x5x5 : Shape := ⟨3, ![64, 5, 5]⟩
abbrev S64 : Shape := ⟨1, ![64]⟩
abbrev S_ : Shape := ⟨0, ![]⟩
abbrev S8x64x64 : Shape := ⟨3, ![8, 64, 64]⟩
abbrev S32768 : Shape := ⟨1, ![32768]⟩
abbrev S64x25 : Shape := ⟨2, ![64, 25]⟩
abbrev S1x32768x1 : Shape := ⟨3, ![1, 32768, 1]⟩
abbrev S64x1x25 : Shape := ⟨3, ![64, 1, 25]⟩
abbrev S64x32768x25 : Shape := ⟨3, ![64, 32768, 25]⟩
abbrev S64x1x1 : Shape := ⟨3, ![64, 1, 1]⟩
abbrev S1x64x32768x25 : Shape := ⟨4, ![1, 64, 32768, 25]⟩

abbrev nBuf : Space → Nat
  | .hbm => 19
  | .vmem => 0
  | .smem => 0
  | _ => 0

abbrev bufTy : (tb : Table) → Fin (tcTables nBuf tb) → BufTy
  | .hbm, ⟨0, _⟩ => ⟨S8x64x64x64, .f32⟩
  | .hbm, ⟨1, _⟩ => ⟨S64x5x5, .f32⟩
  | .hbm, ⟨2, _⟩ => ⟨S64, .f32⟩
  | .hbm, ⟨3, _⟩ => ⟨S_, .f32⟩
  | .hbm, ⟨4, _⟩ => ⟨S8x64x64, .f32⟩
  | .hbm, ⟨5, _⟩ => ⟨S32768, .f32⟩
  | .hbm, ⟨6, _⟩ => ⟨S64x25, .f32⟩
  | .hbm, ⟨7, _⟩ => ⟨S1x32768x1, .f32⟩
  | .hbm, ⟨8, _⟩ => ⟨S64x1x25, .f32⟩
  | .hbm, ⟨9, _⟩ => ⟨S64x32768x25, .f32⟩
  | .hbm, ⟨10, _⟩ => ⟨S64x32768x25, .f32⟩
  | .hbm, ⟨11, _⟩ => ⟨S64x32768x25, .f32⟩
  | .hbm, ⟨12, _⟩ => ⟨S64x1x1, .f32⟩
  | .hbm, ⟨13, _⟩ => ⟨S64x32768x25, .f32⟩
  | .hbm, ⟨14, _⟩ => ⟨S64x32768x25, .f32⟩
  | .hbm, ⟨15, _⟩ => ⟨S_, .f32⟩
  | .hbm, ⟨16, _⟩ => ⟨S64x32768x25, .f32⟩
  | .hbm, ⟨17, _⟩ => ⟨S64x32768x25, .f32⟩
  | .hbm, ⟨18, _⟩ => ⟨S1x64x32768x25, .f32⟩
  | _, _ => ⟨S8x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_cst : Ref sig .tc := ⟨.hbm, 15, rfl⟩
abbrev main_call0_v0 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  reducesTo_S8x64x64x64_S8x64x64_d3 : S8x64x64x64.ReducesTo [3] S8x64x64
  h_S_ : 0 < S_.numel
  shapeCasts_S8x64x64_S32768 : S8x64x64.ShapeCasts S32768
  shapeCasts_S64x5x5_S64x25 : S64x5x5.ShapeCasts S64x25
  bcast_S32768_S1x32768x1_1 : S32768.BroadcastsInDim S1x32768x1 (![1] : Fin 1 → Fin S1x32768x1.rank)
  bcast_S64x25_S64x1x25_0_2 : S64x25.BroadcastsInDim S64x1x25 (![0, 2] : Fin 2 → Fin S64x1x25.rank)
  bcast_S1x32768x1_S64x32768x25_0_1_2 : S1x32768x1.BroadcastsInDim S64x32768x25 (![0, 1, 2] : Fin 3 → Fin S64x32768x25.rank)
  bcast_S64x1x25_S64x32768x25_0_1_2 : S64x1x25.BroadcastsInDim S64x32768x25 (![0, 1, 2] : Fin 3 → Fin S64x32768x25.rank)
  bcast_S64_S64x1x1_0 : S64.BroadcastsInDim S64x1x1 (![0] : Fin 1 → Fin S64x1x1.rank)
  bcast_S64x1x1_S64x32768x25_0_1_2 : S64x1x1.BroadcastsInDim S64x32768x25 (![0, 1, 2] : Fin 3 → Fin S64x32768x25.rank)
  bcast_S_S64x32768x25 : S_.BroadcastsInDim S64x32768x25 (![] : Fin 0 → Fin S64x32768x25.rank)
  bcast_S64x32768x25_S1x64x32768x25_1_2_3 : S64x32768x25.BroadcastsInDim S1x64x32768x25 (![1, 2, 3] : Fin 3 → Fin S1x64x32768x25.rank)

variable [Facts₀]

class Facts : Prop extends Facts₀ where

variable [Facts]
-- ==== Proof.LibRowOps.lean ====
/-
  Row-wise layout operations of a two-axis array, read at an entry; generic in the number of rows, so that one statement
  serves every tiling of a row-wise computation.

    * a column [a, 1] broadcast across b columns reads, at (p, c), the column's entry at row p;
    * a single entry [1, 1] broadcast down a rows reads that entry;
    * a vector [a] recast as a column [a, 1] reads, at (p, 0), the vector's entry p;
    * the sum of an [a, b] array along its second axis reads, at p, the sum over the b entries of row p.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

variable {α : Type}

/-- A column broadcast across the columns. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single entry broadcast down the rows. -/
theorem broadcastTo_11_a1_apply {a : ℕ} (v : (⟨2, ![1, 1]⟩ : Shape).Idx → α)
    (h : (⟨2, ![1, 1]⟩ : Shape).Broadcasts ⟨2, ![a, 1]⟩) (p : Fin a) :
    broadcastTo ⟨2, ![a, 1]⟩ v h (ix2 p (0 : Fin 1)) = v (ix2 (0 : Fin 1) (0 : Fin 1)) := by
  refine broadcastTo_apply v h (ix2 p (0 : Fin 1)) (ix2 (0 : Fin 1) (0 : Fin 1)) fun ax => ?_
  match ax with
  | ⟨0, _⟩ => rfl
  | ⟨1, _⟩ => rfl

/-- A vector recast as a column. -/
theorem shapeCast_a_a1_apply {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) :=
  shapeCast_apply x h (ix2 p (0 : Fin 1)) (ix1 p) (by
    rw [Shape.rowMajor_val_one, Shape.rowMajor_val_two]
    show p.val = p.val * 1 + 0
    omega)

/-- The sum along the second axis, at row `p`, over the extended reals. -/
theorem lane_sum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (p : Fin a) :
    multiReduction .add [(1 : Fin 2)] ⟨1, ![a]⟩ src acc h hφ hacc (ix1 p) = ∑ k : Fin b, src (ix2 p k) := by
  rw [Ideal.multiReduction_add_single]
  refine Finset.sum_congr rfl fun k _ => congrArg src ?_
  funext c
  apply Fin.ext
  match c with
  | ⟨0, _⟩ => rfl
  | ⟨1, _⟩ => rfl

end Idealize.ShloMosaic.RowOps

end
-- ==== Proof.LibOuterLayout.lean ====
/-
  The layout operations of an outer product over three axes, each read at an entry; generic in the three extents.

  An array [a, b, c] whose entry (p, q, r) combines a value per q, a value per (p, r) and a value per p is built by
  giving each operand unit axes where it does not vary and broadcasting it to [a, b, c]:

    * a [1, b, 1] array broadcast to [a, b, c] reads, at (p, q, r), the operand at (0, q, 0);
    * an [a, 1, c] array broadcast to [a, b, c] reads, at (p, q, r), the operand at (p, 0, r);
    * an [a, 1, 1] array broadcast to [a, b, c] reads, at (p, q, r), the operand at (p, 0, 0);
    * an [a, c] array recast as [a, 1, c] reads, at (p, 0, r), the operand at (p, r);
    * a vector [a] recast as [a, 1, 1] reads, at (p, 0, 0), the vector's entry p.
-/
import Idealize.ShloMosaic.Lib.ValueIdx
import Idealize.ShloMosaic.Lib.Pipeline.Value

noncomputable section

namespace Idealize.ShloMosaic.OuterLayout

open Idealize.ShloMosaic Idealize.ShloMosaic.ValueIdx

variable {α : Type}

/-- A value per middle coordinate, broadcast over the outer and the inner axis. -/
theorem broadcastTo_1b1_abc_apply {a b c : ℕ} (v : (⟨3, ![1, b, 1]⟩ : Shape).Idx → α)
    (h : (⟨3, ![1, b, 1]⟩ : Shape).Broadcasts ⟨3, ![a, b, c]⟩) (p : Fin a) (q : Fin b) (r : Fin c) :
    broadcastTo ⟨3, ![a, b, c]⟩ v h (ix3 p q r) = v (ix3 (0 : Fin 1) q (0 : Fin 1)) := by
  refine broadcastTo_apply v h (ix3 p q r) (ix3 (0 : Fin 1) q (0 : Fin 1)) fun ax => ?_
  match ax with
  | ⟨0, _⟩ => rfl
  | ⟨1, _⟩ =>
    show q.val = if b = 1 then 0 else q.val
    split
    · have := q.isLt; omega
    · rfl
  | ⟨2, _⟩ => rfl

/-- A value per outer and inner coordinate, broadcast over the middle axis. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A value per outer coordinate, broadcast over the middle and the inner axis. -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-- A two-axis array given a unit middle axis. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h (ix3 p u r) (ix2 p r) (by
    have hu : u.val = 0 := by omega
    rw [Shape.rowMajor_val_two, Shape.rowMajor_val_three]
    show p.val * c + r.val = (p.val * 1 + u.val) * c + r.val
    rw [hu, Nat.mul_one, Nat.add_zero])

/-- A vector given two trailing unit axes. -/
theorem shapeCast_a_a11_apply {a : ℕ} (x : (⟨1, ![a]⟩ : Shape).Idx → α)
    (h : (⟨1, ![a]⟩ : Shape).ShapeCasts ⟨3, ![a, 1, 1]⟩) (p : Fin a) (u v : Fin 1) :
    shapeCast ⟨3, ![a, 1, 1]⟩ x h (ix3 p u v) = x (ix1 p) :=
  shapeCast_apply x h (ix3 p u v) (ix1 p) (by
    have hu : u.val = 0 := by omega
    have hv : v.val = 0 := by omega
    rw [Shape.rowMajor_val_one, Shape.rowMajor_val_three]
    show p.val = (p.val * 1 + u.val) * 1 + v.val
    omega)

end Idealize.ShloMosaic.OuterLayout

end
-- ==== Proof.Payload.lean ====
/-
  What the kernel's body computes from the blocks it loads, read at an entry.

  The body loads a block X of 512 rows of the image by 64, the whole filter table Wf : [64, 25] and the bias b : [64],
  sums each row of X, and stores the [64, 512, 25] block whose entry (f, r, p) is

      max ((Σ_k X(r, k)) · Wf(f, p) + b(f)) 0.

  The row sums are given unit axes to become [1, 512, 1], the taps [64, 1, 25], the bias [64, 1, 1]; each is broadcast
  to [64, 512, 25] and the arithmetic is entry by entry.
-/
import proofs.«148031_j83193516523865_2_alg».proof.Proof.Gen.KernelIdeal.Skeleton
import proofs.«148031_j83193516523865_2_alg».proof.Proof.LibRowOps
import proofs.«148031_j83193516523865_2_alg».proof.Proof.LibOuterLayout
import Idealize.ShloMosaic.Lib.ValueLayout
import Idealize.ShloMosaic.PureOps.Ideal.Laws

noncomputable section

open scoped BigOperators

namespace Cert.KernelIdeal.Body

open Idealize.ShloMosaic Idealize.ShloMosaic.ValueIdx Idealize.ShloMosaic.OuterLayout Idealize.ShloMosaic.RowOps
open Cert.KernelIdeal Cert.KernelIdeal.Gen

/-- The stored block at entry (f, r, p). -/
theorem payload_apply (x0 : FVec Ideal S512x64 .f32) (x1 : FVec Ideal S64x25 .f32) (x2 : FVec Ideal S64 .f32)
    (f : Fin 64) (r : Fin 512) (p : Fin 25) :
    k0_pay1 (F := Ideal) x0 x1 x2 (ix3 f r p)
      = max ((∑ k : Fin 64, x0 (ix2 r k)) * x1 (ix2 f p) + x2 (ix1 f)) 0 := by
  unfold k0_pay1
  dsimp only
  rw [maximumf_apply, addf_apply, mulf_apply, broadcast_apply]
  rw [broadcastTo_1b1_abc_apply, shapeCast_ab_1ab_apply, shapeCast_a_a1_apply]
  rw [broadcastTo_a1c_abc_apply, shapeCast_ac_a1c_apply, shapeCast_self, shapeCast_self]
  rw [broadcastTo_a11_abc_apply, shapeCast_a_a11_apply]
  rw [Ideal.ofBits_def, Ideal.ofBits_zero_f32]
  refine congrArg (fun s => max (s * x1 (ix2 f p) + x2 (ix1 f)) 0) ?_
  exact lane_sum_apply x0 0x00000000#32 reduces_S512x64_S512 _ _ r

end Cert.KernelIdeal.Body

end
-- ==== Proof.Spec.lean ====
/-
  The array both programs compute, stated once over the extended reals.

  The image x : [8, 64, 64, 64] is read as 32768 rows of 64 entries: row n is batch n / 4096, channel n / 64 mod 64,
  height n mod 64, and its sum over the 64 entries of the last axis is s(n).  The filters W : [64, 5, 5] are read as
  64 rows of 25 taps: tap p of filter f is W(f, p / 5, p mod 5).  The result is the outer product of the row sums with
  the taps, shifted by the filter's bias and clamped below at zero:

      out(f, n, p) = max (s(n) · W(f, p) + b(f)) 0      for f < 64, n < 32768, p < 25.

  Sum, product, shift and maximum are the extended reals' own; nothing here needs an entry to be finite, since the two
  programs apply the same operations in the same order to the same entries and differ only in how they cut the array
  into rows and blocks.
-/
import Idealize.ShloMosaic.PureOps.Ideal
import Idealize.ShloMosaic.Lib.ValueIdx

noncomputable section

open scoped BigOperators

namespace Cert.RowSumOuter

open Idealize.ShloMosaic Idealize.ShloMosaic.ValueIdx

/-- Entry k of row n of the image: the row number split into batch, channel and height. -/
def rowAt (n : Fin 32768) (k : Fin 64) : (⟨4, ![8, 64, 64, 64]⟩ : Shape).Idx :=
  ix4 (⟨n.val / 4096, by omega⟩ : Fin 8) (⟨n.val / 64 % 64, by omega⟩ : Fin 64) (⟨n.val % 64, by omega⟩ : Fin 64) k

/-- Tap p of filter f: the tap number split into its row and column in the 5 by 5 filter. -/
def tapAt (f : Fin 64) (p : Fin 25) : (⟨3, ![64, 5, 5]⟩ : Shape).Idx :=
  ix3 f (⟨p.val / 5, by omega⟩ : Fin 5) (⟨p.val % 5, by omega⟩ : Fin 5)

/-- The sum of row n of the image. -/
def rowSum (x : (⟨4, ![8, 64, 64, 64]⟩ : Shape).Idx → EReal) (n : Fin 32768) : EReal :=
  ∑ k : Fin 64, x (rowAt n k)

/-- One entry of the result. -/
def outerAt (x : (⟨4, ![8, 64, 64, 64]⟩ : Shape).Idx → EReal) (W : (⟨3, ![64, 5, 5]⟩ : Shape).Idx → EReal)
    (b : (⟨1, ![64]⟩ : Shape).Idx → EReal) (f : Fin 64) (n : Fin 32768) (p : Fin 25) : EReal :=
  max (rowSum x n * W (tapAt f p) + b (ix1 f)) 0

/-- The result as an array over [64, 32768, 25]. -/
def outer (x : (⟨4, ![8, 64, 64, 64]⟩ : Shape).Idx → EReal) (W : (⟨3, ![64, 5, 5]⟩ : Shape).Idx → EReal)
    (b : (⟨1, ![64]⟩ : Shape).Idx → EReal) : (⟨3, ![64, 32768, 25]⟩ : Shape).Idx → EReal :=
  fun j => outerAt x W b (j 0) (j 1) (j 2)

theorem outer_ix3 (x : (⟨4, ![8, 64, 64, 64]⟩ : Shape).Idx → EReal) (W : (⟨3, ![64, 5, 5]⟩ : Shape).Idx → EReal)
    (b : (⟨1, ![64]⟩ : Shape).Idx → EReal) (f : Fin 64) (n : Fin 32768) (p : Fin 25) :
    outer x W b (ix3 f n p) = outerAt x W b f n p := rfl

end Cert.RowSumOuter

end
-- ==== Proof.Reshape.lean ====
/-
  The two regroupings of the arguments, read at an entry.

  The image [8, 64, 64, 64] regrouped as [32768, 64] keeps the row-major order of its entries: entry (n, k) is at
  position 64 n + k, which is the position of (n / 4096, n / 64 mod 64, n mod 64, k).  The filters [64, 5, 5] regrouped
  as [64, 25]: entry (f, p) is at position 25 f + p, the position of (f, p / 5, p mod 5).
-/
import proofs.«148031_j83193516523865_2_alg».proof.Proof.Spec
import Idealize.ShloMosaic.Lib.Pipeline.Value

noncomputable section

namespace Cert.RowSumOuter

open Idealize.ShloMosaic Idealize.ShloMosaic.ValueIdx

/-- The image as rows: entry (n, k) is entry k of row n. -/
theorem rows_apply {α : Type} (x : (⟨4, ![8, 64, 64, 64]⟩ : Shape).Idx → α)
    (h : (⟨4, ![8, 64, 64, 64]⟩ : Shape).ShapeCasts ⟨2, ![32768, 64]⟩) (n : Fin 32768) (k : Fin 64) :
    shapeCast ⟨2, ![32768, 64]⟩ x h (ix2 n k) = x (rowAt n k) :=
  shapeCast_apply x h (ix2 n k) (rowAt n k) (by
    rw [Shape.rowMajor_val_four, Shape.rowMajor_val_two]
    show ((n.val / 4096 * 64 + n.val / 64 % 64) * 64 + n.val % 64) * 64 + k.val = n.val * 64 + k.val
    have := n.isLt
    omega)

/-- The filters as rows of taps: entry (f, p) is tap p of filter f. -/
theorem taps_apply {α : Type} (W : (⟨3, ![64, 5, 5]⟩ : Shape).Idx → α)
    (h : (⟨3, ![64, 5, 5]⟩ : Shape).ShapeCasts ⟨2, ![64, 25]⟩) (f : Fin 64) (p : Fin 25) :
    shapeCast ⟨2, ![64, 25]⟩ W h (ix2 f p) = W (tapAt f p) :=
  shapeCast_apply W h (ix2 f p) (tapAt f p) (by
    rw [Shape.rowMajor_val_three, Shape.rowMajor_val_two]
    show (f.val * 5 + p.val / 5) * 5 + p.val % 5 = f.val * 25 + p.val
    have := p.isLt
    omega)

end Cert.RowSumOuter

end
-- ==== Proof.Blocks.lean ====
/-
  From the blocks the kernel writes to the whole array.

  The grid has 64 points.  At point t the body is given rows 512 t … 512 t + 511 of the image read as [32768, 64], the
  whole [64, 25] table of taps and the whole bias, and its [64, 512, 25] result is written to rows 512 t … 512 t + 511
  of the middle axis of the [64, 32768, 25] result array.  Entry (f, r, p) of the block written at point t is
  max (s(512 t + r) · W(f, p) + b(f)) 0, which is entry (f, 512 t + r, p) of the outer-product array; and every entry
  (f, n, p) of the result array lies in the block of point n / 512.  So after the last point the array is the
  outer-product array.
-/
import proofs.«148031_j83193516523865_2_alg».proof.Proof.Gen.KernelIdeal.Frame
import proofs.«148031_j83193516523865_2_alg».proof.Proof.Payload
import proofs.«148031_j83193516523865_2_alg».proof.Proof.Reshape
import Idealize.ShloMosaic.Lib.Pipeline.Value
import Idealize.ShloMosaic.Lib.StableHlo.Run

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.RowSumOuter
open Idealize.ShloMosaic.Pipeline (Dat)

variable (m : (ℓ : Loc nD τ sig) → Buf (Elt Ideal) ℓ) (ρ : Dev nD → PrngReg)

/-- The outer-product array of the arguments as launched. -/
abbrev result (c : Dev nD) : S64x32768x25.Idx → EReal :=
  outer (m ((c : Thread nD τ).loc main_arg0)) (m ((c : Thread nD τ).loc main_arg1)) (m ((c : Thread nD τ).loc main_arg2))

/-- When the kernel starts, the first operand holds the image regrouped as 32768 rows of 64. -/
theorem rows_eq (c : Dev nD) : (V m c main_v0 : S32768x64.Idx → EReal)
    = shapeCast S32768x64 (m ((c : Thread nD τ).loc main_arg0)) shapeCasts_S8x64x64x64_S32768x64 := by
  show StableHlo.after hostOps0 (fun b => m (c, b)) (Proc.devRef .tc main_v0) = _
  after_results
  rfl

/-- When the kernel starts, the second operand holds the filters regrouped as 64 rows of 25 taps. -/
theorem taps_eq (c : Dev nD) : (V m c main_v1 : S64x25.Idx → EReal)
    = shapeCast S64x25 (m ((c : Thread nD τ).loc main_arg1)) shapeCasts_S64x5x5_S64x25 := by
  show StableHlo.after hostOps0 (fun b => m (c, b)) (Proc.devRef .tc main_v1) = _
  after_results
  rfl

/-- Where each window's block sits at point t: the image's and the result's move with t along their row axis, the taps'
    and the bias's stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 3) = 0 ∧ win0_3.index t (1 : Fin 3) = t.val ∧ win0_3.index t (2 : Fin 3) = 0 :=
  (by decide +kernel : ∀ t : Fin grid0.N, _)

/-- The image block at point t, at (r, k), is entry k of row 512 t + r of the image. -/
theorem rows_block (c : Dev nD) (t : Fin cfg0.N) (r : Fin 512) (k : Fin 64) (n : Fin 32768)
    (hn : n.val = t.val * 512 + r.val) :
    (iblk m c 0 t : FVec Ideal S512x64 .f32) (ix2 r k) = m ((c : Thread nD τ).loc main_arg0) (rowAt n k) := by
  obtain ⟨e0, e1, -⟩ := idx_facts t
  unfold iblk
  rw [View.read_apply]
  show V m c main_v0 _ = _
  rw [rows_eq, ← rows_apply (m ((c : Thread nD τ).loc main_arg0)) shapeCasts_S8x64x64x64_S32768x64 n k]
  refine congrArg _ (funext fun a => Fin.ext ?_)
  match a with
  | ⟨0, _⟩ => show win0_0.index t (0 : Fin 2) * 512 + 1 * r.val = n.val; omega
  | ⟨1, _⟩ => show win0_0.index t (1 : Fin 2) * 64 + 1 * k.val = k.val; omega

/-- The taps' block at any point is the whole table: at (f, p), tap p of filter f. -/
theorem taps_block (c : Dev nD) (t : Fin cfg0.N) (f : Fin 64) (p : Fin 25) :
    (iblk m c 1 t : FVec Ideal S64x25 .f32) (ix2 f p) = m ((c : Thread nD τ).loc main_arg1) (tapAt f p) := by
  obtain ⟨-, -, e0, e1, -⟩ := idx_facts t
  unfold iblk
  rw [View.read_apply]
  show V m c main_v1 _ = _
  rw [taps_eq, ← taps_apply (m ((c : Thread nD τ).loc main_arg1)) shapeCasts_S64x5x5_S64x25 f p]
  refine congrArg _ (funext fun a => Fin.ext ?_)
  match a with
  | ⟨0, _⟩ => show win0_1.index t (0 : Fin 2) * 64 + 1 * f.val = f.val; omega
  | ⟨1, _⟩ => show win0_1.index t (1 : Fin 2) * 25 + 1 * p.val = p.val; omega

/-- The bias's block at any point is the whole bias. -/
theorem bias_block (c : Dev nD) (t : Fin cfg0.N) (f : Fin 64) :
    (iblk m c 2 t : FVec Ideal S64 .f32) (ix1 f) = m ((c : Thread nD τ).loc main_arg2) (ix1 f) := by
  obtain ⟨-, -, -, -, e0, -⟩ := idx_facts t
  unfold iblk
  rw [View.read_apply]
  show V m c main_arg2 _ = _
  rw [V_main_arg2]
  refine congrArg _ (funext fun a => Fin.ext ?_)
  match a with
  | ⟨0, _⟩ => show win0_2.index t (0 : Fin 1) * 64 + 1 * f.val = f.val; omega

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Entry y of the block the body leaves at point t is the outer-product array's entry 512 t rows further down. -/
theorem block_entry (c : Dev nD) (t : Fin cfg0.N) (y : S64x512x25.Idx) (i : S64x32768x25.Idx)
    (h0 : (i 0).val = (y 0).val) (h1 : (i 1).val = t.val * 512 + (y 1).val) (h2 : (i 2).val = (y 2).val) :
    k0_pay1 (F := Ideal) (iblk m c 0 t) (iblk m c 1 t) (iblk m c 2 t) y = result m c i := by
  obtain ⟨f, r, p, rfl⟩ : ∃ (f : Fin 64) (r : Fin 512) (p : Fin 25), y = ix3 f r p := ⟨y 0, y 1, y 2, eq_ix3 y⟩
  obtain ⟨f', n, p', rfl⟩ : ∃ (f' : Fin 64) (n : Fin 32768) (p' : Fin 25), i = ix3 f' n p' := ⟨i 0, i 1, i 2, eq_ix3 i⟩
  obtain rfl : f' = f := Fin.ext h0
  obtain rfl : p' = p := Fin.ext h2
  refine (Body.payload_apply (iblk m c 0 t) (iblk m c 1 t) (iblk m c 2 t) f' r p').trans ?_
  show _ = outerAt (m ((c : Thread nD τ).loc main_arg0)) (m ((c : Thread nD τ).loc main_arg1))
    (m ((c : Thread nD τ).loc main_arg2)) f' n p'
  unfold outerAt rowSum
  rw [taps_block m c t f' p', bias_block m c t f']
  exact congrArg (fun s => max (s * m ((c : Thread nD τ).loc main_arg1) (tapAt f' p') + m ((c : Thread nD τ).loc main_arg2) (ix1 f')) 0)
    (Finset.sum_congr rfl fun k _ => rows_block m c t r k n h1)

/-- What point t writes back is block t of the outer-product array. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  unfold out0_3
  rw [View.canon_unit_zero hz3]
  simp only [View.ld_unit_zero (S := S512x64) hz2, View.ld_unit_zero (S := S64x25) hz2, View.ld_unit_zero (S := S64) hz1]
  obtain ⟨-, -, -, -, -, e0, e1, e2⟩ := idx_facts t
  funext y
  show k0_pay1 (F := Ideal) (iblk m c 0 t) (iblk m c 1 t) (iblk m c 2 t) y = result m c (((cfg0.win 3).blk t).view.emb y)
  refine block_entry m c t y (((cfg0.win 3).blk t).view.emb y) ?_ ?_ ?_
  · show win0_3.index t (0 : Fin 3) * 64 + 1 * (y 0).val = (y 0).val; omega
  · show win0_3.index t (1 : Fin 3) * 512 + 1 * (y 1).val = t.val * 512 + (y 1).val; omega
  · show win0_3.index t (2 : Fin 3) * 25 + 1 * (y 2).val = (y 2).val; omega

/-- An entry of the result array is in point t's block exactly when each coordinate is in the block's range. -/
theorem mem_blk (t : Fin cfg0.N) (i : S64x32768x25.Idx) :
    i ∈ ((cfg0.win 3).blk t).view.set ↔ ∀ a : Fin 3, win0_3.index t a * S64x512x25.size a ≤ (i a).val
      ∧ (i a).val < win0_3.index t a * S64x512x25.size a + S64x512x25.size a := by
  show i ∈ ((View.whole main_v2).slice (win0_3.rect t)).set ↔ _
  rw [View.set_slice_whole, Rect.mem_set_unit]
  exact Iff.rfl

/-- Entry (f, n, p) of the result array lies in the block of point n / 512, and every point writes its block back. -/
theorem cover (i : S64x32768x25.Idx) :
    ∃ t : Fin cfg0.N, (cfg0.win 3).flush t = true ∧ i ∈ ((cfg0.win 3).blk t).view.set := by
  have h0 : (i 0).val < 64 := (i 0).isLt
  have h1 : (i 1).val < 32768 := (i 1).isLt
  have h2 : (i 2).val < 25 := (i 2).isLt
  let t : Fin cfg0.N := Fin.cast N_0.symm ⟨(i 1).val / 512, by omega⟩
  obtain ⟨-, -, -, -, -, e0, e1, e2⟩ := idx_facts t
  have e1' : win0_3.index t (1 : Fin 3) = (i 1).val / 512 := e1
  refine ⟨t, flush0_3 t, ?_⟩
  rw [mem_blk]
  intro a
  match a with
  | ⟨0, _⟩ =>
    show win0_3.index t (0 : Fin 3) * 64 ≤ (i 0).val ∧ (i 0).val < win0_3.index t (0 : Fin 3) * 64 + 64
    omega
  | ⟨1, _⟩ =>
    show win0_3.index t (1 : Fin 3) * 512 ≤ (i 1).val ∧ (i 1).val < win0_3.index t (1 : Fin 3) * 512 + 512
    omega
  | ⟨2, _⟩ =>
    show win0_3.index t (2 : Fin 3) * 25 ≤ (i 2).val ∧ (i 2).val < win0_3.index t (2 : Fin 3) * 25 + 25
    omega

/-- After the last point the result array of the kernel is the outer-product array. -/
theorem final (c : Dev nD) : (dats m 0 c).arrAt 3 cfg0.N = result m c :=
  (dats m 0 c).arrAt_eq_of_cover 3 (result m c) (fun t _ => flushed_eq m c t) cover

end Cert.KernelIdeal.Blocks

end
-- ==== Proof.KernelRun.lean ====
/-
  The kernel's program, run: its result is the outer-product array with a leading unit axis.

  After the grid the [64, 32768, 25] array holds the outer-product array; the one operation that follows gives it a
  leading axis of extent one, so the program's result at (0, f, n, p) is the outer-product array's entry (f, n, p).
  The three arguments are read and never written.
-/
import proofs.«148031_j83193516523865_2_alg».proof.Proof.Blocks

noncomputable section

namespace Cert.KernelIdeal.Run

open Cert.KernelIdeal Cert.KernelIdeal.Gen Idealize.ShloMosaic Idealize.ShloMosaic.TcCoe Idealize.SL.Sem
open Cert.KernelIdeal.Blocks
open Idealize.ShloMosaic.Pipeline (Dat)

variable (m : (ℓ : Loc nD τ sig) → Buf (Elt Ideal) ℓ) (ρ : Dev nD → PrngReg)

/-- What the program returns: the outer-product array of the arguments under a leading unit axis. -/
abbrev returned (c : Dev nD) : S1x64x32768x25.Idx → EReal :=
  broadcastInDim S1x64x32768x25 ![1, 2, 3] bcast_S64x32768x25_S1x64x32768x25_1_2_3 (result m c)

/-- The operation after the grid reads the array the grid left. -/
theorem tail_eq (c : Dev nD) :
    Pipeline.afterTail₀ cfgs (dats m) 0 (V0 m) [hostOps1] c main_v3 = returned m c := by
  unfold Pipeline.afterTail₀
  show StableHlo.after hostOps1 _ (Proc.devRef .tc main_v3) = _
  after_results
  exact congrArg (broadcastInDim S1x64x32768x25 ![1, 2, 3] bcast_S64x32768x25_S1x64x32768x25_1_2_3)
    ((Pipeline.withArrays_arr spec0 launch0.win.arr_inj c (V0 m c) (fun w => (dats m 0 c).arrAt w cfg0.N) 3).trans
      (final m c))

/-- Every run of the kernel's program ends with its result at the outer-product array under a leading unit axis and
    its three arguments as they were. -/
theorem run : θ_run defs (onTc (τ := τ) (main (F := Ideal))) ⟨m, fun _ => 0, ρ⟩ fun r => ∀ c : Dev nD,
      r.2.mem ((c.tc : Thread nD τ).loc main_v3) = returned m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.Run

end
-- ==== Proof.RefValue.lean ====
/-
  The reference computes the outer-product array.

  The reference sums the image over its last axis, giving [8, 64, 64], and reads that as a vector of 32768 row sums:
  entry n is the sum at (n / 4096, n / 64 mod 64, n mod 64), which is the sum of row n.  It reads the filters as
  [64, 25]: entry (f, p) is the filter entry at (f, p / 5, p mod 5), because 25 f + p divided by 25, by 5 and modulo 5
  gives back f, p / 5 and p mod 5.  Broadcasting row sums, taps and bias to [64, 32768, 25] and combining them entry by
  entry gives max (s(n) · W(f, p) + b(f)) 0; the sum starts from the zero word, which adds nothing.
-/
import proofs.«148031_j83193516523865_2_alg».proof.Proof.Gen.ReferenceIdeal.Read
import proofs.«148031_j83193516523865_2_alg».proof.Proof.Spec
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Read Cert.RowSumOuter

/-- Through the reference's layout operations, entry k of row n of the image is what the row sum n adds up. -/
theorem row_index (f : Fin 64) (n : Fin 32768) (p : Fin 25) (k : Fin 64) :
    idx_main_v0 (idx_main_v1 (idx_main_v3 (idx_main_v5 (ix3 f n p)))) k = rowAt n k := by
  funext a
  apply Fin.ext
  match a with
  | ⟨0, _⟩ => rfl
  | ⟨1, _⟩ => rfl
  | ⟨2, _⟩ => rfl
  | ⟨3, _⟩ => rfl

/-- Through the reference's layout operations, entry (f, p) of the flattened filters is tap p of filter f. -/
theorem tap_index (f : Fin 64) (n : Fin 32768) (p : Fin 25) :
    idx_main_v2 (idx_main_v4 (idx_main_v6 (ix3 f n p))) = tapAt f p := by
  funext a
  apply Fin.ext
  have hf : f.val < 64 := f.isLt
  have hp : p.val < 25 := p.isLt
  match a with
  | ⟨0, _⟩ => show (f.val * 25 + p.val) / 25 = f.val; omega
  | ⟨1, _⟩ => show (f.val * 25 + p.val) / 5 % 5 = p.val / 5; omega
  | ⟨2, _⟩ => show (f.val * 25 + p.val) % 5 = p.val % 5; omega

/-- Through the reference's layout operations, the bias entry is that of filter f. -/
theorem bias_index (f : Fin 64) (n : Fin 32768) (p : Fin 25) :
    idx_main_v8 (idx_main_v9 (ix3 f n p)) = ix1 f := by
  funext a
  apply Fin.ext
  match a with
  | ⟨0, _⟩ => rfl

/-- The reference's array before its final leading unit axis is the outer-product array. -/
theorem ref_eq (x : FVec Ideal S8x64x64x64 .f32) (W : FVec Ideal S64x5x5 .f32) (b : FVec Ideal S64 .f32) :
    val_main_v11 (F := Ideal) x W b = outer x W b := by
  funext j
  obtain ⟨f, n, p, rfl⟩ : ∃ (f : Fin 64) (n : Fin 32768) (p : Fin 25), j = ix3 f n p := ⟨j 0, j 1, j 2, eq_ix3 j⟩
  rw [outer_ix3]
  rw [val_main_v11_apply, val_main_v10_apply, val_main_v7_apply, val_main_v5_apply, val_main_v3_apply,
    val_main_v1_apply, val_main_v0_apply, val_main_v6_apply, val_main_v4_apply, val_main_v2_apply, val_main_v9_apply,
    val_main_v8_apply, val_main_call0_v0_apply, val_main_call0_cst_apply, val_main_cst_apply]
  simp only [Ideal.maximumf_def, Ideal.addf_def, Ideal.mulf_def, Ideal.ofBits_def, Ideal.ofBits_zero_f32, zero_add,
    row_index, tap_index, bias_index]
  rfl

end Cert.ReferenceIdeal.RefValue

end
-- ==== Proof.lean ====
/-
  For an image x : [8, 64, 64, 64], filters W : [64, 5, 5] and a bias b : [64], both programs return the array
  [1, 64, 32768, 25] whose entry (0, f, n, p) is

      max (s(n) · W(f, p / 5, p mod 5) + b(f)) 0,    s(n) = Σ_k x(n / 4096, n / 64 mod 64, n mod 64, k),

  the outer product of the image's 32768 row sums with each filter's 25 taps, shifted by the filter's bias and clamped
  below at zero.

  The reference sums the image over its last axis, flattens the sums and the filters, broadcasts the three operands to
  [64, 32768, 25] and combines them entry by entry.  The kernel reads the image as 32768 rows of 64 and walks them 512
  rows at a time: at each of its 64 grid points it sums the rows of its block, forms the [64, 512, 25] block of the
  outer product and writes it to rows 512 t … 512 t + 511 of the result; the 64 blocks tile the result.  Both then
  add the leading unit axis.  Row n of the image read as [32768, 64] is the row the reference's flattened sum n adds
  up, since both regroupings keep the row-major order; and the sum of a row, the product, the shift and the maximum
  are the same operations of the extended reals on the same entries in the same order, so the two results agree entry
  by entry whatever the entries are — finiteness of the inputs is not used.

  The idealized kernel is the kernel's own text read over the extended reals: no operation was rewritten, so there is
  nothing to preserve.  Each program's run terminates without a fault and leaves its arguments unchanged.
-/
import proofs.«148031_j83193516523865_2_alg».proof.Defs
import proofs.«148031_j83193516523865_2_alg».proof.Proof.Gen.Kernel
import proofs.«148031_j83193516523865_2_alg».proof.Proof.Gen.Kernel.Frame
import proofs.«148031_j83193516523865_2_alg».proof.Proof.Gen.KernelIdeal
import proofs.«148031_j83193516523865_2_alg».proof.Proof.Gen.KernelIdeal.Frame
import proofs.«148031_j83193516523865_2_alg».proof.Proof.Gen.ReferenceIdeal
import proofs.«148031_j83193516523865_2_alg».proof.Proof.Gen.ReferenceIdeal.Run
import proofs.«148031_j83193516523865_2_alg».proof.Proof.Gen.ReferenceIdeal.Read
import proofs.«148031_j83193516523865_2_alg».proof.Proof.Gen.Pre_finite_inputs
import proofs.«148031_j83193516523865_2_alg».proof.Proof.KernelRun
import proofs.«148031_j83193516523865_2_alg».proof.Proof.RefValue

noncomputable section

namespace Cert.Proof

open Idealize.ShloMosaic Idealize.SL.Sem

/-- The kernel's program runs to the end and keeps its arguments. -/
theorem frame_kernel : Cert.frame_Kernel := fun m ρ _ => Cert.Kernel.Gen.frame m ρ

/-- So does the same text read over the extended reals. -/
theorem frame_kernel_ideal : Cert.frame_KernelIdeal := fun m ρ _ => Cert.KernelIdeal.Gen.frame m ρ

/-- The reference runs to the end and keeps its arguments: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- Over the extended reals, from the same arguments, the kernel's program and the reference end with the same array:
    the outer product of row sums and taps, shifted, clamped, under a leading unit axis. -/
theorem algebraic : Cert.algebraic_KernelIdeal_ReferenceIdeal := by
  intro m ρ m' ρ' _ hagree
  refine ⟨fun c => Cert.KernelIdeal.Run.returned m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq]
  unfold Cert.ReferenceIdeal.Read.val_main_v12
  rw [Cert.ReferenceIdeal.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
